-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x64 : Shape := ⟨2, ![1600000, 64]⟩
abbrev S1600000x32 : Shape := ⟨2, ![1600000, 32]⟩
abbrev S16x2 : Shape := ⟨2, ![16, 2]⟩
abbrev S1600000 : Shape := ⟨1, ![1600000]⟩
abbrev S160x128 : Shape := ⟨2, ![160, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1600000x64 : S_.BroadcastsInDim S1600000x64 (![] : Fin 0 → Fin S1600000x64.rank)
  reducesTo_S1600000x64_S_d0_1 : S1600000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S16x2 : S_.BroadcastsInDim S16x2 (![] : Fin 0 → Fin S16x2.rank)
  reducesTo_S16x2_S_d0_1 : S16x2.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S160x128 .f32) (main_arg6 : FVec F S128 .f32) (main_arg7 : FVec F S128x64 .f32) (main_arg8 : FVec F S64 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S160x128 .f32 := Host.absf main_arg5
  let main_cst_6 : FVec F S_ .f32 := constant S_ .f32 0x7F800000#32
  let main_v20 : FVec F S160x128 .f32 := broadcastInDim S160x128 ![] bcast_S_S160x128 main_cst_6
  let main_v21 : IVec S160x128 1 := cmpf .olt main_v19 main_v20
  let main_c_7 : IVec S_ 1 := constantI S_ 1 1#1
  let main_v22 : IVec S_ 1 := (fun x v => Host.reduce IntOp.andi x v reducesTo_S160x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S1600000x64 .f32) (main_arg1 : FVec F S1600000x64 .f32) (main_arg2 : FVec F S1600000x32 .f32) (main_arg3 : FVec F S16x2 .f32) (main_arg4 : IVec S1600000 32) (main_arg5 : FVec F S160x128 .f32) (main_arg6 : FVec F S128 .f32) (main_arg7 : FVec F S128x64 .f32) (main_arg8 : FVec F S64 .f32) : IVec S_ 1 :=
  let main_v0 : FVec F S1600000x64 .f32 := Host.absf main_arg0
  let main_cst : FVec F S_ .f32 := constant S_ .f32 0x7F800000#32
  let main_v1 : FVec F S1600000x64 .f32 := broadcastInDim S1600000x64 ![] bcast_S_S1600000x64 main_cst
  let main_v2 : IVec S1600000x64 1 := cmpf .olt main_v0 main_v1
  let main_c : IVec S_ 1 := constantI S_ 1 1#1
  let main_v3 : IVec S_ 1 := (fun x v => Host.reduce IntOp.andi x v reducesTo_S1600000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S1600000x32 .f32 := Host.absf main_arg2
  let main_cst_2 : FVec F S_ .f32 := constant S_ .f32 0x7F800000#32
  let main_v10 : FVec F S1600000x32 .f32 := broadcastInDim S1600000x32 ![] bcast_S_S1600000x32 main_cst_2
  let main_v11 : IVec S1600000x32 1 := cmpf .olt main_v9 main_v10
  let main_c_3 : IVec S_ 1 := constantI S_ 1 1#1
  let main_v12 : IVec S_ 1 := (fun x v => Host.reduce IntOp.andi x v reducesTo_S1600000x32_S_d0_1 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_arg6 main_arg7 main_arg8 main_v13 main_v16
-- ==== Kernel.lean ====
abbrev S1600000x64 : Shape := ⟨2, ![1600000, 64]⟩
abbrev S1600000x32 : Shape := ⟨2, ![1600000, 32]⟩
abbrev S16x2 : Shape := ⟨2, ![16, 2]⟩
abbrev S1600000 : Shape := ⟨1, ![1600000]⟩
abbrev S160x128 : Shape := ⟨2, ![160, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S32x128 : Shape := ⟨2, ![32, 128]⟩
abbrev S1x128 : Shape := ⟨2, ![1, 128]⟩
abbrev S1x64 : Shape := ⟨2, ![1, 64]⟩
abbrev S6400x64 : Shape := ⟨2, ![6400, 64]⟩
abbrev S6400x32 : Shape := ⟨2, ![6400, 32]⟩
abbrev S6400x128 : Shape := ⟨2, ![6400, 128]⟩

abbrev nBuf : Space → Nat
  | .hbm => 19
  | .vmem => 14
  | .smem => 0
  | _ => 0

abbrev bufTy : (tb : Table) → Fin (tcTables nBuf tb) → BufTy
  | .hbm, ⟨0, _⟩ => ⟨S1600000x64, .f32⟩
  | .hbm, ⟨1, _⟩ => ⟨S1600000x64, .f32⟩
  | .hbm, ⟨2, _⟩ => ⟨S1600000x32, .f32⟩
  | .hbm, ⟨3, _⟩ => ⟨S16x2, .f32⟩
  | .hbm, ⟨4, _⟩ => ⟨S1600000, .i32⟩
  | .hbm, ⟨5, _⟩ => ⟨S160x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x128, .f32⟩
  | .hbm, ⟨10, _⟩ => ⟨S64x128, .f32⟩
  | .hbm, ⟨11, _⟩ => ⟨S32x128, .f32⟩
  | .hbm, ⟨12, _⟩ => ⟨S64x128, .bf16⟩
  | .hbm, ⟨13, _⟩ => ⟨S64x128, .bf16⟩
  | .hbm, ⟨14, _⟩ => ⟨S32x128, .bf16⟩
  | .hbm, ⟨15, _⟩ => ⟨S128x64, .bf16⟩
  | .hbm, ⟨16, _⟩ => ⟨S1x128, .f32⟩
  | .hbm, ⟨17, _⟩ => ⟨S1x64, .f32⟩
  | .hbm, ⟨18, _⟩ => ⟨S1600000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x32, .f32⟩
  | .local _ .vmem, ⟨5, _⟩ => ⟨S6400x32, .f32⟩
  | .local _ .vmem, ⟨6, _⟩ => ⟨S64x128, .bf16⟩
  | .local _ .vmem, ⟨7, _⟩ => ⟨S64x128, .bf16⟩
  | .local _ .vmem, ⟨8, _⟩ => ⟨S32x128, .bf16⟩
  | .local _ .vmem, ⟨9, _⟩ => ⟨S1x128, .f32⟩
  | .local _ .vmem, ⟨10, _⟩ => ⟨S128x64, .bf16⟩
  | .local _ .vmem, ⟨11, _⟩ => ⟨S1x64, .f32⟩
  | .local _ .vmem, ⟨12, _⟩ => ⟨S6400x64, .f32⟩
  | .local _ .vmem, ⟨13, _⟩ => ⟨S6400x64, .f32⟩
  | _, _ => ⟨S1600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6400x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S160x128_S64x128_0_0 : S160x128.Slices ![0, 0] S64x128
  slices_S160x128_S64x128_64_0 : S160x128.Slices ![64, 0] S64x128
  slices_S160x128_S32x128_128_0 : S160x128.Slices ![128, 0] S32x128
  bitsLt_bf16_f32 : FTy.bits .bf16 < FTy.bits .f32
  shapeCasts_S128_S1x128 : S128.ShapeCasts S1x128
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  inb_S6400x32_S6400x32_0_0 : ∀ a, (![0, 0] : Fin 2 → Nat) a + S6400x32.size a ≤ S6400x32.size a
  h_S6400x32 : 0 < S6400x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  dot_S6400x64_S64x128_S6400x128_1_0_0_1_n_n_wf : DotDims.WF S6400x64 S64x128 S6400x128 [1] [0] [0] [1] [] []
  dot_S6400x32_S32x128_S6400x128_1_0_0_1_n_n_wf : DotDims.WF S6400x32 S32x128 S6400x128 [1] [0] [0] [1] [] []
  dot_S6400x128_S128x64_S6400x64_1_0_0_1_n_n_wf : DotDims.WF S6400x128 S128x64 S6400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x32.size a ≤ S1600000x32.size a
  hwx0_2 : ∀ i : grid0.Coords, EltTy.bits .f32 = 32 ∨ (Rect.block (s := S1600000x32) S6400x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .bf16 = 32 ∨ (Rect.block (s := S128x64) S128x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6400x64.size a ≤ S1600000x64.size a
  hwx0_9 : ∀ i : grid0.Coords, EltTy.bits .f32 = 32 ∨ (Rect.block (s := S1600000x64) S6400x64.size (cc0_transform_9 i) (hinb0_9 i)).WholeWords (EltTy.packing .f32)

variable [Facts₀]

def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def dot_S6400x128_S128x64_S6400x64_1_0_0_1_n_n : DotDims S6400x128 S128x64 S6400x64 where
  lhsContracting := [1]
  rhsContracting := [0]
  lhsNonContracting := [0]
  rhsNonContracting := [1]
  lhsBatch := []
  rhsBatch := []
  wf := dot_S6400x128_S128x64_S6400x64_1_0_0_1_n_n_wf

abbrev win0_0 : Pipeline.Window sig grid0 :=
  Pipeline.Window.ofSpec (Memref.whole main_arg0) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S6400x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1600000x64 : Shape := ⟨2, ![1600000, 64]⟩
abbrev S1600000x32 : Shape := ⟨2, ![1600000, 32]⟩
abbrev S16x2 : Shape := ⟨2, ![16, 2]⟩
abbrev S1600000 : Shape := ⟨1, ![1600000]⟩
abbrev S160x128 : Shape := ⟨2, ![160, 128]⟩
abbrev S128 : Shape := ⟨1, ![128]⟩
abbrev S128x64 : Shape := ⟨2, ![128, 64]⟩
abbrev S64 : Shape := ⟨1, ![64]⟩
abbrev S1600000x160 : Shape := ⟨2, ![1600000, 160]⟩
abbrev S1600000x128 : Shape := ⟨2, ![1600000, 128]⟩
abbrev S1x128 : Shape := ⟨2, ![1, 128]⟩
abbrev S_ : Shape := ⟨0, ![]⟩
abbrev S1x64 : Shape := ⟨2, ![1, 64]⟩

abbrev nBuf : Space → Nat
  | .hbm => 21
  | .vmem => 0
  | .smem => 0
  | _ => 0

abbrev bufTy : (tb : Table) → Fin (tcTables nBuf tb) → BufTy
  | .hbm, ⟨0, _⟩ => ⟨S1600000x64, .f32⟩
  | .hbm, ⟨1, _⟩ => ⟨S1600000x64, .f32⟩
  | .hbm, ⟨2, _⟩ => ⟨S1600000x32, .f32⟩
  | .hbm, ⟨3, _⟩ => ⟨S16x2, .f32⟩
  | .hbm, ⟨4, _⟩ => ⟨S1600000, .i32⟩
  | .hbm, ⟨5, _⟩ => ⟨S160x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1600000x160, .f32⟩
  | .hbm, ⟨10, _⟩ => ⟨S1600000x128, .f32⟩
  | .hbm, ⟨11, _⟩ => ⟨S1x128, .f32⟩
  | .hbm, ⟨12, _⟩ => ⟨S1600000x128, .f32⟩
  | .hbm, ⟨13, _⟩ => ⟨S1600000x128, .f32⟩
  | .hbm, ⟨14, _⟩ => ⟨S_, .f32⟩
  | .hbm, ⟨15, _⟩ => ⟨S1600000x128, .f32⟩
  | .hbm, ⟨16, _⟩ => ⟨S1600000x128, .f32⟩
  | .hbm, ⟨17, _⟩ => ⟨S1600000x64, .f32⟩
  | .hbm, ⟨18, _⟩ => ⟨S1x64, .f32⟩
  | .hbm, ⟨19, _⟩ => ⟨S1600000x64, .f32⟩
  | .hbm, ⟨20, _⟩ => ⟨S1600000x64, .f32⟩
  | _, _ => ⟨S1600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  concatenates_S1600000x64_S1600000x64_S1600000x32_S1600000x160_d1 : Shape.Concatenates [S1600000x64, S1600000x64, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  dot_S1600000x160_S160x128_S1600000x128_1_0_0_1_n_n_wf : DotDims.WF S1600000x160 S160x128 S1600000x128 [1] [0] [0] [1] [] []
  dot_S1600000x128_S128x64_S1600000x64_1_0_0_1_n_n_wf : DotDims.WF S1600000x128 S128x64 S1600000x64 [1] [0] [0] [1] [] []

variable [Facts₀]

def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf

class Facts : Prop extends Facts₀ where

variable [Facts]
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.BodyValue.lean ====
/-
  What one run of the kernel body computes, entry by entry, on the extended reals.

  The body sees a block of 6400 edges: their  src,  dst  (6400 × 64) and  attr  (6400 × 32) rows, the three row bands of the
  first layer's weights (64 × 128, 64 × 128, 32 × 128), its bias as one row (1 × 128), the second layer's weights (128 × 64)
  and its bias as one row (1 × 64). A change of float format is the identity on the extended reals and a product into the
  zero accumulator is the plain sum of products, so entry (p, q) of what the body stores is

      (∑ h < 128, max (S₁ p h + S₂ p h + S₃ p h + bias₁ h) 0 · w2 (h, q)) + bias₂ q,

  where  S₁ p h = ∑ k < 64, src (p, k) · w1s (k, h),  S₂  the same for  dst  and the second band, and  S₃  the sum over
  k < 32 for  attr  and the third band.
-/
import proofs.«139858_j17669495456023_2_alg».proof.Proof.Gen.KernelIdeal.Skeleton
import proofs.«139858_j17669495456023_2_alg».proof.Proof.LibPlainDot
import Idealize.ShloMosaic.Lib.ValueLayout

noncomputable section

namespace Cert.KernelIdeal.BodyValue

open Cert.KernelIdeal Cert.KernelIdeal.Gen Idealize.ShloMosaic Idealize.ShloMosaic.ValueIdx

/-! ## Where the three contractions read their operands -/

theorem dotA_lhs0 (j : S6400x128.Idx) (q : dot_S6400x64_S64x128_S6400x128_1_0_0_1_n_n.contr.Idx) :
    (dot_S6400x64_S64x128_S6400x128_1_0_0_1_n_n.lhsIdx j q 0).val = (j 0).val := by
  unfold DotDims.lhsIdx
  rw [dif_neg (show ¬(0 : Fin S6400x64.rank) ∈ dot_S6400x64_S64x128_S6400x128_1_0_0_1_n_n.lhsBatch by decide), dif_pos (show (0 : Fin S6400x64.rank) ∈ dot_S6400x64_S64x128_S6400x128_1_0_0_1_n_n.lhsNonContracting by decide)]
  rfl
theorem dotA_rhs1 (j : S6400x128.Idx) (q : dot_S6400x64_S64x128_S6400x128_1_0_0_1_n_n.contr.Idx) :
    (dot_S6400x64_S64x128_S6400x128_1_0_0_1_n_n.rhsIdx j q 1).val = (j 1).val := by
  unfold DotDims.rhsIdx
  rw [dif_neg (show ¬(1 : Fin S64x128.rank) ∈ dot_S6400x64_S64x128_S6400x128_1_0_0_1_n_n.rhsBatch by decide), dif_pos (show (1 : Fin S64x128.rank) ∈ dot_S6400x64_S64x128_S6400x128_1_0_0_1_n_n.rhsNonContracting by decide)]
  rfl
theorem dotB_lhs0 (j : S6400x128.Idx) (q : dot_S6400x32_S32x128_S6400x128_1_0_0_1_n_n.contr.Idx) :
    (dot_S6400x32_S32x128_S6400x128_1_0_0_1_n_n.lhsIdx j q 0).val = (j 0).val := by
  unfold DotDims.lhsIdx
  rw [dif_neg (show ¬(0 : Fin S6400x32.rank) ∈ dot_S6400x32_S32x128_S6400x128_1_0_0_1_n_n.lhsBatch by decide), dif_pos (show (0 : Fin S6400x32.rank) ∈ dot_S6400x32_S32x128_S6400x128_1_0_0_1_n_n.lhsNonContracting by decide)]
  rfl
theorem dotB_rhs1 (j : S6400x128.Idx) (q : dot_S6400x32_S32x128_S6400x128_1_0_0_1_n_n.contr.Idx) :
    (dot_S6400x32_S32x128_S6400x128_1_0_0_1_n_n.rhsIdx j q 1).val = (j 1).val := by
  unfold DotDims.rhsIdx
  rw [dif_neg (show ¬(1 : Fin S32x128.rank) ∈ dot_S6400x32_S32x128_S6400x128_1_0_0_1_n_n.rhsBatch by decide), dif_pos (show (1 : Fin S32x128.rank) ∈ dot_S6400x32_S32x128_S6400x128_1_0_0_1_n_n.rhsNonContracting by decide)]
  rfl
theorem dotC_lhs0 (j : S6400x64.Idx) (q : dot_S6400x128_S128x64_S6400x64_1_0_0_1_n_n.contr.Idx) :
    (dot_S6400x128_S128x64_S6400x64_1_0_0_1_n_n.lhsIdx j q 0).val = (j 0).val := by
  unfold DotDims.lhsIdx
  rw [dif_neg (show ¬(0 : Fin S6400x128.rank) ∈ dot_S6400x128_S128x64_S6400x64_1_0_0_1_n_n.lhsBatch by decide), dif_pos (show (0 : Fin S6400x128.rank) ∈ dot_S6400x128_S128x64_S6400x64_1_0_0_1_n_n.lhsNonContracting by decide)]
  rfl
theorem dotC_rhs1 (j : S6400x64.Idx) (q : dot_S6400x128_S128x64_S6400x64_1_0_0_1_n_n.contr.Idx) :
    (dot_S6400x128_S128x64_S6400x64_1_0_0_1_n_n.rhsIdx j q 1).val = (j 1).val := by
  unfold DotDims.rhsIdx
  rw [dif_neg (show ¬(1 : Fin S128x64.rank) ∈ dot_S6400x128_S128x64_S6400x64_1_0_0_1_n_n.rhsBatch by decide), dif_pos (show (1 : Fin S128x64.rank) ∈ dot_S6400x128_S128x64_S6400x64_1_0_0_1_n_n.rhsNonContracting by decide)]
  rfl

/-! ## The three products, each into the zero accumulator, at an entry -/

theorem prodA_apply {φ₁ φ₂ : FTy} (x : FVec Ideal S6400x64 φ₁) (w : FVec Ideal S64x128 φ₂) (p : Fin 6400) (h : Fin 128) :
    FloatOps.matmul dot_S6400x64_S64x128_S6400x128_1_0_0_1_n_n none x w (constant S6400x128 .f32 0x00000000#32) (ix2 p h)
      = ∑ k : Fin 64, x (ix2 p k) * w (ix2 k h) :=
  PlainDot.matmul_zero_ix2 dot_S6400x64_S64x128_S6400x128_1_0_0_1_n_n rfl rfl rfl rfl dotA_lhs0 dotA_rhs1 none x w p h

theorem prodB_apply {φ₁ φ₂ : FTy} (x : FVec Ideal S6400x32 φ₁) (w : FVec Ideal S32x128 φ₂) (p : Fin 6400) (h : Fin 128) :
    FloatOps.matmul dot_S6400x32_S32x128_S6400x128_1_0_0_1_n_n none x w (constant S6400x128 .f32 0x00000000#32) (ix2 p h)
      = ∑ k : Fin 32, x (ix2 p k) * w (ix2 k h) :=
  PlainDot.matmul_zero_ix2 dot_S6400x32_S32x128_S6400x128_1_0_0_1_n_n rfl rfl rfl rfl dotB_lhs0 dotB_rhs1 none x w p h

theorem prodC_apply {φ₁ φ₂ : FTy} (x : FVec Ideal S6400x128 φ₁) (w : FVec Ideal S128x64 φ₂) (p : Fin 6400) (q : Fin 64) :
    FloatOps.matmul dot_S6400x128_S128x64_S6400x64_1_0_0_1_n_n none x w (constant S6400x64 .f32 0x00000000#32) (ix2 p q)
      = ∑ h : Fin 128, x (ix2 p h) * w (ix2 h q) :=
  PlainDot.matmul_zero_ix2 dot_S6400x128_S128x64_S6400x64_1_0_0_1_n_n rfl rfl rfl rfl dotC_lhs0 dotC_rhs1 none x w p q

/-! ## The body's stored value at an entry -/

/-- Entry (p, q) of the block the body stores, from the blocks it loads. -/
theorem stored_apply (src dst : FVec Ideal S6400x64 .f32) (attr : FVec Ideal S6400x32 .f32)
    (w1s w1d : FVec Ideal S64x128 .bf16) (w1e : FVec Ideal S32x128 .bf16) (bias1 : FVec Ideal S1x128 .f32)
    (w2 : FVec Ideal S128x64 .bf16) (bias2 : FVec Ideal S1x64 .f32) (p : Fin 6400) (q : Fin 64) :
    k0_pay1 (F := Ideal) src dst attr w1s w1d w1e bias1 w2 bias2 (ix2 p q)
      = (∑ h : Fin 128,
          max ((∑ k : Fin 64, src (ix2 p k) * w1s (ix2 k h)) + (∑ k : Fin 64, dst (ix2 p k) * w1d (ix2 k h))
                + (∑ k : Fin 32, attr (ix2 p k) * w1e (ix2 k h)) + bias1 (ix2 (0 : Fin 1) h))
              (Ideal.ofBits .f32 0x00000000#32)
            * w2 (ix2 h q))
        + bias2 (ix2 (0 : Fin 1) q) := by
  unfold k0_pay1
  simp only [shapeCast_self]
  refine (congrArg₂ (· + ·) (prodC_apply _ w2 p q) (broadcastTo_1b_ab_apply bias2 _ p q)).trans ?_
  refine congrArg (· + bias2 (ix2 (0 : Fin 1) q)) (Finset.sum_congr rfl fun h _ => ?_)
  refine congrArg (· * w2 (ix2 h q)) ?_
  refine congrArg (max · (Ideal.ofBits .f32 0x00000000#32)) ?_
  exact congrArg₂ (· + ·) (congrArg₂ (· + ·) (congrArg₂ (· + ·) (prodA_apply _ w1s p h) (prodA_apply _ w1d p h)) (prodB_apply _ w1e p h))
    (broadcastTo_1b_ab_apply bias1 _ p h)

end Cert.KernelIdeal.BodyValue

end
-- ==== Proof.Windows.lean ====
/-
  What each input block holds at a grid point, as entries of the argument arrays.

  The grid has 250 points; point t works on edges 6400·t … 6400·t + 6399. The three feature windows move with the point:
  entry (p, k) of their block at point t is entry (6400·t + p, k) of the argument. The other six windows stay at block (0, 0)
  of small arrays the program computes once, before the region, from the arguments:
    · rows 0..63, 64..127 and 128..159 of the first layer's weights (each narrowed to a shorter float format, which on the
      extended reals changes nothing),
    · the first layer's bias laid out as one row of 128,
    · the second layer's weights (narrowed likewise), and its bias as one row of 64.
  So entry (k, h) of the three weight blocks is  W1 (k, h),  W1 (64 + k, h),  W1 (128 + k, h);  entry (0, h) of the bias row
  is  b1 h;  and the same for the second layer.
-/
import proofs.«139858_j17669495456023_2_alg».proof.Proof.Gen.KernelIdeal.Frame
import Idealize.ShloMosaic.Lib.StableHlo.Run
import Idealize.ShloMosaic.Lib.ValueLayout
import Idealize.ShloMosaic.PureOps.Ideal

noncomputable section

namespace Cert.KernelIdeal.Windows

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The grid -/

theorem points : cfg0.N = 250 := N_0

theorem point_lt (t : Fin cfg0.N) : t.val < 250 := by
  exact lt_of_lt_of_eq t.isLt points

/-- The edge that row `p` of point `t`'s block is. -/
def edge (t : Fin cfg0.N) (p : Fin 6400) : Fin 1600000 := ⟨t.val * 6400 + p.val, by have := point_lt t; omega⟩

/-- The feature windows and the result window sit at block (t, 0) at point t (decided over the 250 points). -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- The weight and bias windows sit at block (0, 0) at every point (decided over the 250 points). -/
theorem idx_fixed : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## What the region finds in the small arrays computed before it -/

theorem found_w1s (c : Dev nD) : (V m c main_v3 : S64x128.Idx → EReal)
    = (truncf (F := Ideal) .bf16 (extractStridedSlice S64x128 ![0, 0] (m ((c : Thread nD τ).loc main_arg5) : S160x128.Idx → EReal) slices_S160x128_S64x128_0_0) bitsLt_bf16_f32 : S64x128.Idx → EReal) := by
  dsimp only [Gen.V, Gen.hostOps0]; after_results <;> rfl

theorem found_w1d (c : Dev nD) : (V m c main_v4 : S64x128.Idx → EReal)
    = (truncf (F := Ideal) .bf16 (extractStridedSlice S64x128 ![64, 0] (m ((c : Thread nD τ).loc main_arg5) : S160x128.Idx → EReal) slices_S160x128_S64x128_64_0) bitsLt_bf16_f32 : S64x128.Idx → EReal) := by
  dsimp only [Gen.V, Gen.hostOps0]; after_results <;> rfl

theorem found_w1e (c : Dev nD) : (V m c main_v5 : S32x128.Idx → EReal)
    = (truncf (F := Ideal) .bf16 (extractStridedSlice S32x128 ![128, 0] (m ((c : Thread nD τ).loc main_arg5) : S160x128.Idx → EReal) slices_S160x128_S32x128_128_0) bitsLt_bf16_f32 : S32x128.Idx → EReal) := by
  dsimp only [Gen.V, Gen.hostOps0]; after_results <;> rfl

theorem found_w2 (c : Dev nD) : (V m c main_v6 : S128x64.Idx → EReal)
    = (truncf (F := Ideal) .bf16 (m ((c : Thread nD τ).loc main_arg7) : FVec Ideal S128x64 .f32) bitsLt_bf16_f32 : S128x64.Idx → EReal) := by
  dsimp only [Gen.V, Gen.hostOps0]; after_results <;> rfl

theorem found_b1 (c : Dev nD) : (V m c main_v7 : S1x128.Idx → EReal)
    = (shapeCast S1x128 (m ((c : Thread nD τ).loc main_arg6) : S128.Idx → EReal) shapeCasts_S128_S1x128 : S1x128.Idx → EReal) := by
  dsimp only [Gen.V, Gen.hostOps0]; after_results <;> rfl

theorem found_b2 (c : Dev nD) : (V m c main_v8 : S1x64.Idx → EReal)
    = (shapeCast S1x64 (m ((c : Thread nD τ).loc main_arg8) : S64.Idx → EReal) shapeCasts_S64_S1x64 : S1x64.Idx → EReal) := by
  dsimp only [Gen.V, Gen.hostOps0]; after_results <;> rfl

/-! ## The blocks, entry by entry -/

/-- Row p of point t's `src` block is the row of edge 6400·t + p. -/
theorem src_block (c : Dev nD) (t : Fin cfg0.N) (p : Fin 6400) (k : Fin 64) :
    (iblk m c 0 t : S6400x64.Idx → EReal) (ix2 p k)
      = (m ((c : Thread nD τ).loc main_arg0) : S1600000x64.Idx → EReal) (ix2 (edge t p) k) := by
  unfold iblk
  rw [View.read_apply]
  show V m c main_arg0 _ = _
  rw [V_main_arg0]
  obtain ⟨h0, h1, -⟩ := idx_moving t
  refine congrArg (m ((c : Thread nD τ).loc main_arg0) : S1600000x64.Idx → EReal) (funext fun a => Fin.ext ?_)
  match a with
  | ⟨0, _⟩ => show win0_0.index t (0 : Fin 2) * 6400 + 1 * p.val = t.val * 6400 + p.val; rw [h0]; omega
  | ⟨1, _⟩ => show win0_0.index t (1 : Fin 2) * 64 + 1 * k.val = k.val; rw [h1]; omega

/-- Row p of point t's `dst` block is the row of edge 6400·t + p. -/
theorem dst_block (c : Dev nD) (t : Fin cfg0.N) (p : Fin 6400) (k : Fin 64) :
    (iblk m c 1 t : S6400x64.Idx → EReal) (ix2 p k)
      = (m ((c : Thread nD τ).loc main_arg1) : S1600000x64.Idx → EReal) (ix2 (edge t p) k) := by
  unfold iblk
  rw [View.read_apply]
  show V m c main_arg1 _ = _
  rw [V_main_arg1]
  obtain ⟨-, -, h0, h1, -⟩ := idx_moving t
  refine congrArg (m ((c : Thread nD τ).loc main_arg1) : S1600000x64.Idx → EReal) (funext fun a => Fin.ext ?_)
  match a with
  | ⟨0, _⟩ => show win0_1.index t (0 : Fin 2) * 6400 + 1 * p.val = t.val * 6400 + p.val; rw [h0]; omega
  | ⟨1, _⟩ => show win0_1.index t (1 : Fin 2) * 64 + 1 * k.val = k.val; rw [h1]; omega

/-- Row p of point t's `attr` block is the row of edge 6400·t + p. -/
theorem attr_block (c : Dev nD) (t : Fin cfg0.N) (p : Fin 6400) (k : Fin 32) :
    (iblk m c 2 t : S6400x32.Idx → EReal) (ix2 p k)
      = (m ((c : Thread nD τ).loc main_arg2) : S1600000x32.Idx → EReal) (ix2 (edge t p) k) := by
  unfold iblk
  rw [View.read_apply]
  show V m c main_arg2 _ = _
  rw [V_main_arg2]
  obtain ⟨-, -, -, -, h0, h1, -⟩ := idx_moving t
  refine congrArg (m ((c : Thread nD τ).loc main_arg2) : S1600000x32.Idx → EReal) (funext fun a => Fin.ext ?_)
  match a with
  | ⟨0, _⟩ => show win0_2.index t (0 : Fin 2) * 6400 + 1 * p.val = t.val * 6400 + p.val; rw [h0]; omega
  | ⟨1, _⟩ => show win0_2.index t (1 : Fin 2) * 32 + 1 * k.val = k.val; rw [h1]; omega

/-- The first weight block is rows 0..63 of the first layer's weights. -/
theorem w1s_block (c : Dev nD) (t : Fin cfg0.N) (k : Fin 64) (h : Fin 128) :
    (iblk m c 3 t : S64x128.Idx → EReal) (ix2 k h)
      = (m ((c : Thread nD τ).loc main_arg5) : S160x128.Idx → EReal) (ix2 (⟨k.val, by omega⟩ : Fin 160) h) := by
  unfold iblk
  rw [View.read_apply]
  show (V m c main_v3 : S64x128.Idx → EReal) _ = _
  rw [found_w1s]
  obtain ⟨h0, h1, -⟩ := idx_fixed t
  have hi : ((cfg0.win 3).blk t).view.emb (ix2 k h) = (ix2 k h : S64x128.Idx) := funext fun a => Fin.ext (by
    match a with
    | ⟨0, _⟩ => show win0_3.index t (0 : Fin 2) * 64 + 1 * k.val = k.val; rw [h0]; omega
    | ⟨1, _⟩ => show win0_3.index t (1 : Fin 2) * 128 + 1 * h.val = h.val; rw [h1]; omega)
  rw [hi]
  exact slice2_axis0_apply 0 _ slices_S160x128_S64x128_0_0 k h _ (Nat.zero_add _).symm

/-- The second weight block is rows 64..127 of the first layer's weights. -/
theorem w1d_block (c : Dev nD) (t : Fin cfg0.N) (k : Fin 64) (h : Fin 128) :
    (iblk m c 4 t : S64x128.Idx → EReal) (ix2 k h)
      = (m ((c : Thread nD τ).loc main_arg5) : S160x128.Idx → EReal) (ix2 (⟨64 + k.val, by omega⟩ : Fin 160) h) := by
  unfold iblk
  rw [View.read_apply]
  show (V m c main_v4 : S64x128.Idx → EReal) _ = _
  rw [found_w1d]
  obtain ⟨-, -, h0, h1, -⟩ := idx_fixed t
  have hi : ((cfg0.win 4).blk t).view.emb (ix2 k h) = (ix2 k h : S64x128.Idx) := funext fun a => Fin.ext (by
    match a with
    | ⟨0, _⟩ => show win0_4.index t (0 : Fin 2) * 64 + 1 * k.val = k.val; rw [h0]; omega
    | ⟨1, _⟩ => show win0_4.index t (1 : Fin 2) * 128 + 1 * h.val = h.val; rw [h1]; omega)
  rw [hi]
  exact slice2_axis0_apply 64 _ slices_S160x128_S64x128_64_0 k h _ rfl

/-- The third weight block is rows 128..159 of the first layer's weights. -/
theorem w1e_block (c : Dev nD) (t : Fin cfg0.N) (k : Fin 32) (h : Fin 128) :
    (iblk m c 5 t : S32x128.Idx → EReal) (ix2 k h)
      = (m ((c : Thread nD τ).loc main_arg5) : S160x128.Idx → EReal) (ix2 (⟨128 + k.val, by omega⟩ : Fin 160) h) := by
  unfold iblk
  rw [View.read_apply]
  show (V m c main_v5 : S32x128.Idx → EReal) _ = _
  rw [found_w1e]
  obtain ⟨-, -, -, -, h0, h1, -⟩ := idx_fixed t
  have hi : ((cfg0.win 5).blk t).view.emb (ix2 k h) = (ix2 k h : S32x128.Idx) := funext fun a => Fin.ext (by
    match a with
    | ⟨0, _⟩ => show win0_5.index t (0 : Fin 2) * 32 + 1 * k.val = k.val; rw [h0]; omega
    | ⟨1, _⟩ => show win0_5.index t (1 : Fin 2) * 128 + 1 * h.val = h.val; rw [h1]; omega)
  rw [hi]
  exact slice2_axis0_apply 128 _ slices_S160x128_S32x128_128_0 k h _ rfl

/-- The first bias row holds the first layer's bias. -/
theorem b1_block (c : Dev nD) (t : Fin cfg0.N) (h : Fin 128) :
    (iblk m c 6 t : S1x128.Idx → EReal) (ix2 (0 : Fin 1) h)
      = (m ((c : Thread nD τ).loc main_arg6) : S128.Idx → EReal) (ix1 h) := by
  unfold iblk
  rw [View.read_apply]
  show (V m c main_v7 : S1x128.Idx → EReal) _ = _
  rw [found_b1]
  obtain ⟨-, -, -, -, -, -, h0, h1, -⟩ := idx_fixed t
  have hi : ((cfg0.win 6).blk t).view.emb (ix2 (0 : Fin 1) h) = (ix2 (0 : Fin 1) h : S1x128.Idx) := funext fun a => Fin.ext (by
    match a with
    | ⟨0, _⟩ => show win0_6.index t (0 : Fin 2) * 1 + 1 * 0 = 0; rw [h0]
    | ⟨1, _⟩ => show win0_6.index t (1 : Fin 2) * 128 + 1 * h.val = h.val; rw [h1]; omega)
  rw [hi]
  exact shapeCast_a_1a_apply _ shapeCasts_S128_S1x128 0 h

/-- The second weight matrix's block is the whole matrix. -/
theorem w2_block (c : Dev nD) (t : Fin cfg0.N) (h : Fin 128) (q : Fin 64) :
    (iblk m c 7 t : S128x64.Idx → EReal) (ix2 h q)
      = (m ((c : Thread nD τ).loc main_arg7) : S128x64.Idx → EReal) (ix2 h q) := by
  unfold iblk
  rw [View.read_apply]
  show (V m c main_v6 : S128x64.Idx → EReal) _ = _
  rw [found_w2]
  obtain ⟨-, -, -, -, -, -, -, -, h0, h1, -⟩ := idx_fixed t
  have hi : ((cfg0.win 7).blk t).view.emb (ix2 h q) = (ix2 h q : S128x64.Idx) := funext fun a => Fin.ext (by
    match a with
    | ⟨0, _⟩ => show win0_7.index t (0 : Fin 2) * 128 + 1 * h.val = h.val; rw [h0]; omega
    | ⟨1, _⟩ => show win0_7.index t (1 : Fin 2) * 64 + 1 * q.val = q.val; rw [h1]; omega)
  rw [hi]
  rfl

/-- The second bias row holds the second layer's bias. -/
theorem b2_block (c : Dev nD) (t : Fin cfg0.N) (q : Fin 64) :
    (iblk m c 8 t : S1x64.Idx → EReal) (ix2 (0 : Fin 1) q)
      = (m ((c : Thread nD τ).loc main_arg8) : S64.Idx → EReal) (ix1 q) := by
  unfold iblk
  rw [View.read_apply]
  show (V m c main_v8 : S1x64.Idx → EReal) _ = _
  rw [found_b2]
  obtain ⟨-, -, -, -, -, -, -, -, -, -, h0, h1⟩ := idx_fixed t
  have hi : ((cfg0.win 8).blk t).view.emb (ix2 (0 : Fin 1) q) = (ix2 (0 : Fin 1) q : S1x64.Idx) := funext fun a => Fin.ext (by
    match a with
    | ⟨0, _⟩ => show win0_8.index t (0 : Fin 2) * 1 + 1 * 0 = 0; rw [h0]
    | ⟨1, _⟩ => show win0_8.index t (1 : Fin 2) * 64 + 1 * q.val = q.val; rw [h1]; omega)
  rw [hi]
  exact shapeCast_a_1a_apply _ shapeCasts_S64_S1x64 0 q

end Cert.KernelIdeal.Windows

end
-- ==== Proof.EdgeMlp.lean ====
/-
  The edge network as ONE function of its argument arrays, on the extended reals.

  For an edge  e < 1 600 000  the three feature rows  src e  (64 entries),  dst e  (64 entries) and  attr e  (32 entries)
  are laid end to end into a row of 160 entries and passed through two affine layers with a rectifier between them:

      hidden e h = (∑ k < 160, row e k · W1 (k, h)) + b1 h            (h < 128)
      out (e, o) = (∑ h < 128, max (hidden e h) 0 · W2 (h, o)) + b2 o   (o < 64)

  Here the first layer's sum is written in the three bands the row is made of: positions 0..63 of the row are  src e
  against rows 0..63 of W1, positions 64..127 are  dst e  against rows 64..127, positions 128..159 are  attr e  against
  rows 128..159. Whether the 160 products are added in one pass or band by band is the same extended real
  (`PlainDot.sum_three_bands`: addition there is commutative and associative, also at the infinities), so no argument has
  to be finite. The zero of the rectifier is kept as the bit pattern both programs print: it is the same pattern on both
  sides and is never evaluated.
-/
import Idealize.ShloMosaic.PureOps.Ideal
import Idealize.ShloMosaic.Lib.ValueIdx

noncomputable section

namespace Cert.EdgeMlp

open Idealize.ShloMosaic Idealize.ShloMosaic.ValueIdx

/-- The first layer at edge `e`, hidden unit `h`, before the rectifier: the three bands' sums, then the bias. -/
def hidden (src dst : (⟨2, ![1600000, 64]⟩ : Shape).Idx → EReal) (attr : (⟨2, ![1600000, 32]⟩ : Shape).Idx → EReal)
    (W1 : (⟨2, ![160, 128]⟩ : Shape).Idx → EReal) (b1 : (⟨1, ![128]⟩ : Shape).Idx → EReal)
    (e : Fin 1600000) (h : Fin 128) : EReal :=
  (∑ k : Fin 64, src (ix2 e k) * W1 (ix2 (⟨k.val, by omega⟩ : Fin 160) h))
    + (∑ k : Fin 64, dst (ix2 e k) * W1 (ix2 (⟨64 + k.val, by omega⟩ : Fin 160) h))
    + (∑ k : Fin 32, attr (ix2 e k) * W1 (ix2 (⟨128 + k.val, by omega⟩ : Fin 160) h))
    + b1 (ix1 h)

/-- The network's result at edge `e`, output unit `o`. -/
def outAt (src dst : (⟨2, ![1600000, 64]⟩ : Shape).Idx → EReal) (attr : (⟨2, ![1600000, 32]⟩ : Shape).Idx → EReal)
    (W1 : (⟨2, ![160, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (e : Fin 1600000) (o : Fin 64) : EReal :=
  (∑ h : Fin 128, max (hidden src dst attr W1 b1 e h) (Ideal.ofBits .f32 0x00000000#32) * W2 (ix2 h o)) + b2 (ix1 o)

/-- The network's result array. -/
def out (src dst : (⟨2, ![1600000, 64]⟩ : Shape).Idx → EReal) (attr : (⟨2, ![1600000, 32]⟩ : Shape).Idx → EReal)
    (W1 : (⟨2, ![160, 128]⟩ : Shape).Idx → EReal) (b1 : (⟨1, ![128]⟩ : Shape).Idx → EReal)
    (W2 : (⟨2, ![128, 64]⟩ : Shape).Idx → EReal) (b2 : (⟨1, ![64]⟩ : Shape).Idx → EReal) :
    (⟨2, ![1600000, 64]⟩ : Shape).Idx → EReal :=
  fun i => outAt src dst attr W1 b1 W2 b2 (i 0) (i 1)

theorem out_ix2 (src dst : (⟨2, ![1600000, 64]⟩ : Shape).Idx → EReal) (attr : (⟨2, ![1600000, 32]⟩ : Shape).Idx → EReal)
    (W1 : (⟨2, ![160, 128]⟩ : Shape).Idx → EReal) (b1 : (⟨1, ![128]⟩ : Shape).Idx → EReal)
    (W2 : (⟨2, ![128, 64]⟩ : Shape).Idx → EReal) (b2 : (⟨1, ![64]⟩ : Shape).Idx → EReal) (e : Fin 1600000) (o : Fin 64) :
    out src dst attr W1 b1 W2 b2 (ix2 e o) = outAt src dst attr W1 b1 W2 b2 e o := rfl

end Cert.EdgeMlp

end
-- ==== Proof.KernelValue.lean ====
/-
  The kernel's result array is the specification.

  At grid point t the body's stored block has, at entry (p, q), the specification at edge 6400·t + p and output unit q:
  each loaded block holds the argument entries the specification reads there (the feature rows of that edge; the three row
  bands of the first weights; the biases; the second weights). The result window writes that block back to rows
  6400·t … 6400·t + 6399 of the result array, and the 250 points' blocks tile its 1 600 000 rows (row r lies in the block of
  point r / 6400), so after the run the whole array is the specification.
-/
import proofs.«139858_j17669495456023_2_alg».proof.Proof.Gen.KernelIdeal.Value
import proofs.«139858_j17669495456023_2_alg».proof.Proof.BodyValue
import proofs.«139858_j17669495456023_2_alg».proof.Proof.Windows
import proofs.«139858_j17669495456023_2_alg».proof.Proof.EdgeMlp

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification at the arguments as launched on core `c`. -/
abbrev spec (c : Dev nD) : S1600000x64.Idx → EReal :=
  EdgeMlp.out (m ((c : Thread nD τ).loc main_arg0)) (m ((c : Thread nD τ).loc main_arg1)) (m ((c : Thread nD τ).loc main_arg2))
    (m ((c : Thread nD τ).loc main_arg5)) (m ((c : Thread nD τ).loc main_arg6)) (m ((c : Thread nD τ).loc main_arg7))
    (m ((c : Thread nD τ).loc main_arg8))

/-! ## One entry of one point's block -/

/-- If the loaded blocks hold, in row `p` and in the weight and bias positions, the argument entries that the specification
    reads for edge `e`, then entry (p, q) of the stored block is the specification at (e, q). -/
theorem point_value (A0 A1 : S1600000x64.Idx → EReal) (A2 : S1600000x32.Idx → EReal) (W1 : S160x128.Idx → EReal)
    (B1 : S128.Idx → EReal) (W2 : S128x64.Idx → EReal) (B2 : S64.Idx → EReal)
    (x0 x1 : FVec Ideal S6400x64 .f32) (x2 : FVec Ideal S6400x32 .f32) (x3 x4 : FVec Ideal S64x128 .bf16)
    (x5 : FVec Ideal S32x128 .bf16) (x6 : FVec Ideal S1x128 .f32) (x7 : FVec Ideal S128x64 .bf16) (x8 : FVec Ideal S1x64 .f32)
    (e : Fin 1600000) (p : Fin 6400)
    (h0 : ∀ k : Fin 64, x0 (ix2 p k) = A0 (ix2 e k)) (h1 : ∀ k : Fin 64, x1 (ix2 p k) = A1 (ix2 e k))
    (h2 : ∀ k : Fin 32, x2 (ix2 p k) = A2 (ix2 e k))
    (h3 : ∀ (k : Fin 64) (h : Fin 128), x3 (ix2 k h) = W1 (ix2 (⟨k.val, by omega⟩ : Fin 160) h))
    (h4 : ∀ (k : Fin 64) (h : Fin 128), x4 (ix2 k h) = W1 (ix2 (⟨64 + k.val, by omega⟩ : Fin 160) h))
    (h5 : ∀ (k : Fin 32) (h : Fin 128), x5 (ix2 k h) = W1 (ix2 (⟨128 + k.val, by omega⟩ : Fin 160) h))
    (h6 : ∀ h : Fin 128, x6 (ix2 (0 : Fin 1) h) = B1 (ix1 h))
    (h7 : ∀ (h : Fin 128) (q : Fin 64), x7 (ix2 h q) = W2 (ix2 h q))
    (h8 : ∀ q : Fin 64, x8 (ix2 (0 : Fin 1) q) = B2 (ix1 q)) (q : Fin 64) :
    k0_pay1 (F := Ideal) x0 x1 x2 x3 x4 x5 x6 x7 x8 (ix2 p q) = EdgeMlp.outAt A0 A1 A2 W1 B1 W2 B2 e q := by
  rw [BodyValue.stored_apply]
  unfold EdgeMlp.outAt EdgeMlp.hidden
  simp only [h0, h1, h2, h3, h4, h5, h6, h7, h8]

/-! ## What a point writes back -/

theorem hz : (![0, 0] : Fin 2 → Nat) = fun _ => 0 := funext fun a => by fin_cases a <;> rfl

/-- Point `t` writes back block `t` of the specification. -/
theorem flushed_eq (c : Dev nD) (t : Fin cfg0.N) :
    (dats m 0 c).flushed 9 t = ((cfg0.win 9).blk t).view.read (Elt Ideal) (spec m c) := by
  rw [Value.flushed9]
  unfold out0_9
  rw [View.canon_unit_zero hz]
  simp only [View.ld_unit_zero (S := S6400x64) hz, View.ld_unit_zero (S := S6400x32) hz, View.ld_unit_zero (S := S64x128) hz,
    View.ld_unit_zero (S := S32x128) hz, View.ld_unit_zero (S := S1x128) hz, View.ld_unit_zero (S := S128x64) hz,
    View.ld_unit_zero (S := S1x64) hz]
  funext j
  obtain ⟨p, q, rfl⟩ : ∃ (p : Fin 6400) (q : Fin 64), j = ix2 p q := ⟨j 0, j 1, eq_ix2 j⟩
  show k0_pay1 (F := Ideal) (iblk m c 0 t) (iblk m c 1 t) (iblk m c 2 t) (iblk m c 3 t) (iblk m c 4 t) (iblk m c 5 t)
      (iblk m c 6 t) (iblk m c 7 t) (iblk m c 8 t) (ix2 p q)
    = spec m c (((cfg0.win 9).blk t).view.emb (ix2 p q))
  obtain ⟨-, -, -, -, -, -, i0, i1⟩ := Windows.idx_moving t
  have hi : ((cfg0.win 9).blk t).view.emb (ix2 p q) = (ix2 (Windows.edge t p) q : S1600000x64.Idx) := funext fun a => Fin.ext (by
    match a with
    | ⟨0, _⟩ => show win0_9.index t (0 : Fin 2) * 6400 + 1 * p.val = t.val * 6400 + p.val; rw [i0]; omega
    | ⟨1, _⟩ => show win0_9.index t (1 : Fin 2) * 64 + 1 * q.val = q.val; rw [i1]; omega)
  rw [hi]
  exact point_value _ _ _ _ _ _ _ (iblk m c 0 t) (iblk m c 1 t) (iblk m c 2 t) (iblk m c 3 t) (iblk m c 4 t) (iblk m c 5 t)
    (iblk m c 6 t) (iblk m c 7 t) (iblk m c 8 t) (Windows.edge t p) p
    (Windows.src_block m c t p) (Windows.dst_block m c t p) (Windows.attr_block m c t p)
    (Windows.w1s_block m c t) (Windows.w1d_block m c t) (Windows.w1e_block m c t) (Windows.b1_block m c t)
    (Windows.w2_block m c t) (Windows.b2_block m c t) q

/-! ## The blocks tile the result array -/

/-- A row of the result array is in point `t`'s block iff it lies in that block's range on each axis. -/
theorem mem_blk (t : Fin cfg0.N) (i : S1600000x64.Idx) :
    i ∈ ((cfg0.win 9).blk t).view.set ↔ ∀ a : Fin 2, win0_9.index t a * S6400x64.size a ≤ (i a).val ∧ (i a).val < win0_9.index t a * S6400x64.size a + S6400x64.size a := by
  show i ∈ ((View.whole main_v9).slice (win0_9.rect t)).set ↔ _
  rw [View.set_slice_whole, Rect.mem_set_unit]
  exact Iff.rfl

/-- Every entry of the result array is in the block of the point its row falls to. -/
theorem covered (i : S1600000x64.Idx) :
    ∃ t : Fin cfg0.N, (cfg0.win 9).flush t = true ∧ i ∈ ((cfg0.win 9).blk t).view.set := by
  have hi0 : (i 0).val < 1600000 := (i 0).isLt
  have hi1 : (i 1).val < 64 := (i 1).isLt
  have hN : cfg0.N = 250 := Windows.points
  refine ⟨⟨(i 0).val / 6400, by rw [hN]; omega⟩, flush0_9 _, ?_⟩
  rw [mem_blk]
  obtain ⟨-, -, -, -, -, -, i0, i1⟩ := Windows.idx_moving ⟨(i 0).val / 6400, by rw [hN]; omega⟩
  intro a
  match a with
  | ⟨0, _⟩ =>
    show win0_9.index ⟨(i 0).val / 6400, _⟩ (0 : Fin 2) * 6400 ≤ (i 0).val ∧ (i 0).val < win0_9.index ⟨(i 0).val / 6400, _⟩ (0 : Fin 2) * 6400 + 6400
    rw [i0]
    show (i 0).val / 6400 * 6400 ≤ (i 0).val ∧ (i 0).val < (i 0).val / 6400 * 6400 + 6400
    omega
  | ⟨1, _⟩ =>
    show win0_9.index ⟨(i 0).val / 6400, _⟩ (1 : Fin 2) * 64 ≤ (i 1).val ∧ (i 1).val < win0_9.index ⟨(i 0).val / 6400, _⟩ (1 : Fin 2) * 64 + 64
    rw [i1]
    omega

/-! ## The array after the run, and the run -/

/-- After the run the result array is the specification. -/
theorem final (c : Dev nD) : (dats m 0 c).arrAt 9 cfg0.N = spec m c :=
  (dats m 0 c).arrAt_eq_of_cover 9 (spec m c) (fun t _ => flushed_eq m c t) covered

/-- The kernel's run: it ends with the result array at the specification and every argument as launched. -/
theorem run : θ_run defs (onTc (τ := τ) (main (F := Ideal))) ⟨m, fun _ => 0, ρ⟩ fun r => ∀ c : Dev nD,
      r.2.mem ((c : Thread nD τ).loc main_v9) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.KernelValue

end
-- ==== Proof.RefValue.lean ====
/-
  The reference computes the specification.

  The reference lays the three feature arrays side by side into one array of 160 columns, multiplies by the whole 160 × 128
  weight matrix, adds the bias, takes the maximum with zero, multiplies by the 128 × 64 matrix and adds the second bias.
  Column c of the joined array is column c of  src  for c < 64, column c − 64 of  dst  for 64 ≤ c < 128, and column
  c − 128 of  attr  from there on. So its first product, a sum over all 160 columns, is the sum of the three bands' sums
  (`PlainDot.sum_three_bands`), which is how the specification writes it; everything after that is the same operation on
  both sides, entry by entry.
-/
import proofs.«139858_j17669495456023_2_alg».proof.Proof.Gen.ReferenceIdeal.Read
import proofs.«139858_j17669495456023_2_alg».proof.Proof.LibPlainDot
import proofs.«139858_j17669495456023_2_alg».proof.Proof.EdgeMlp

noncomputable section

namespace Cert.ReferenceIdeal.RefValue

open Cert.ReferenceIdeal Cert.ReferenceIdeal.Gen Cert.ReferenceIdeal.Read Idealize.ShloMosaic Idealize.ShloMosaic.ValueIdx

/-! ## The joined row, band by band -/

/-- Columns 0..63 of the joined array are `src`'s. -/
theorem row_src (x0 x1 : FVec Ideal S1600000x64 .f32) (x2 : FVec Ideal S1600000x32 .f32) (e : Fin 1600000) (k : Fin 64) (hk : k.val < 160) :
    val_main_v0 (F := Ideal) x0 x1 x2 (ix2 e (⟨k.val, hk⟩ : Fin 160)) = x0 (ix2 e k) := by
  unfold val_main_v0
  refine concatenate_apply_piece (t := S1600000x160) 1 [⟨S1600000x64, x0⟩, ⟨S1600000x64, x1⟩, ⟨S1600000x32, x2⟩] _ (ix2 e (⟨k.val, hk⟩ : Fin 160)) 0 (show (0 : ℕ) < 3 by omega) S1600000x64 x0 rfl rfl 0 rfl (ix2 e k) (fun b hb => ?_) (Nat.zero_add _)
  match b with
  | ⟨0, _⟩ => rfl
  | ⟨1, _⟩ => exact absurd rfl hb

/-- Columns 64..127 of the joined array are `dst`'s. -/
theorem row_dst (x0 x1 : FVec Ideal S1600000x64 .f32) (x2 : FVec Ideal S1600000x32 .f32) (e : Fin 1600000) (k : Fin 64) (hk : 64 + k.val < 160) :
    val_main_v0 (F := Ideal) x0 x1 x2 (ix2 e (⟨64 + k.val, hk⟩ : Fin 160)) = x1 (ix2 e k) := by
  unfold val_main_v0
  refine concatenate_apply_piece (t := S1600000x160) 1 [⟨S1600000x64, x0⟩, ⟨S1600000x64, x1⟩, ⟨S1600000x32, x2⟩] _ (ix2 e (⟨64 + k.val, hk⟩ : Fin 160)) 1 (show (1 : ℕ) < 3 by omega) S1600000x64 x1 rfl rfl 64 rfl (ix2 e k) (fun b hb => ?_) rfl
  match b with
  | ⟨0, _⟩ => rfl
  | ⟨1, _⟩ => exact absurd rfl hb

/-- Columns 128..159 of the joined array are `attr`'s. -/
theorem row_attr (x0 x1 : FVec Ideal S1600000x64 .f32) (x2 : FVec Ideal S1600000x32 .f32) (e : Fin 1600000) (k : Fin 32) (hk : 128 + k.val < 160) :
    val_main_v0 (F := Ideal) x0 x1 x2 (ix2 e (⟨128 + k.val, hk⟩ : Fin 160)) = x2 (ix2 e k) := by
  unfold val_main_v0
  refine concatenate_apply_piece (t := S1600000x160) 1 [⟨S1600000x64, x0⟩, ⟨S1600000x64, x1⟩, ⟨S1600000x32, x2⟩] _ (ix2 e (⟨128 + k.val, hk⟩ : Fin 160)) 2 (show (2 : ℕ) < 3 by omega) S1600000x32 x2 rfl rfl 128 rfl (ix2 e k) (fun b hb => ?_) rfl
  match b with
  | ⟨0, _⟩ => rfl
  | ⟨1, _⟩ => exact absurd rfl hb

/-! ## The first layer, then the whole result -/

/-- The reference's first layer before the rectifier is the specification's, the one sum over 160 columns cut into the three bands. -/
theorem hidden_eq (x0 x1 : FVec Ideal S1600000x64 .f32) (x2 : FVec Ideal S1600000x32 .f32) (x5 : FVec Ideal S160x128 .f32)
    (x6 : FVec Ideal S128 .f32) (e : Fin 1600000) (h : Fin 128) :
    val_main_v4 (F := Ideal) x0 x1 x2 x5 x6 (ix2 e h) = EdgeMlp.hidden x0 x1 x2 x5 x6 e h := by
  rw [val_main_v4_apply, val_main_v1_apply, val_main_v3_apply, val_main_v2_apply]
  have il : ∀ k : Fin 160, lidx_main_v1 (ix2 e h) k = ix2 e k := fun k => funext fun a => Fin.ext (by
    match a with
    | ⟨0, _⟩ => rfl
    | ⟨1, _⟩ => rfl)
  have ir : ∀ k : Fin 160, ridx_main_v1 (ix2 e h) k = ix2 k h := fun k => funext fun a => Fin.ext (by
    match a with
    | ⟨0, _⟩ => rfl
    | ⟨1, _⟩ => rfl)
  have ib : idx_main_v2 (idx_main_v3 (ix2 e h)) = ix1 h := funext fun a => Fin.ext (by
    match a with
    | ⟨0, _⟩ => rfl)
  simp only [il, ir, ib]
  rw [PlainDot.sum_three_bands (a := 64) (b := 64) (c := 32) rfl]
  unfold EdgeMlp.hidden
  simp only [row_src, row_dst, row_attr]
  rfl

/-- The reference's result array is the specification's. -/
theorem value_eq (x0 x1 : FVec Ideal S1600000x64 .f32) (x2 : FVec Ideal S1600000x32 .f32) (x5 : FVec Ideal S160x128 .f32)
    (x6 : FVec Ideal S128 .f32) (x7 : FVec Ideal S128x64 .f32) (x8 : FVec Ideal S64 .f32) :
    val_main_v9 (F := Ideal) x0 x1 x2 x5 x6 x7 x8 = EdgeMlp.out x0 x1 x2 x5 x6 x7 x8 := by
  funext i
  obtain ⟨e, o, rfl⟩ : ∃ (e : Fin 1600000) (o : Fin 64), i = ix2 e o := ⟨i 0, i 1, eq_ix2 i⟩
  rw [EdgeMlp.out_ix2, val_main_v9_apply, val_main_v6_apply, val_main_v8_apply, val_main_v7_apply]
  have il : ∀ k : Fin 128, lidx_main_v6 (ix2 e o) k = ix2 e k := fun k => funext fun a => Fin.ext (by
    match a with
    | ⟨0, _⟩ => rfl
    | ⟨1, _⟩ => rfl)
  have ir : ∀ k : Fin 128, ridx_main_v6 (ix2 e o) k = ix2 k o := fun k => funext fun a => Fin.ext (by
    match a with
    | ⟨0, _⟩ => rfl
    | ⟨1, _⟩ => rfl)
  have ib : idx_main_v7 (idx_main_v8 (ix2 e o)) = ix1 o := funext fun a => Fin.ext (by
    match a with
    | ⟨0, _⟩ => rfl)
  simp only [il, ir, ib, val_main_v5_apply, val_main_call0_v0_apply, val_main_call0_cst_apply, hidden_eq]
  rfl

end Cert.ReferenceIdeal.RefValue

end
-- ==== Proof.lean ====
/-
  An edge network on 1 600 000 edges — the three feature rows of an edge laid end to end, an affine layer of 160 → 128, a
  rectifier, an affine layer of 128 → 64 — computed by a kernel over 250 blocks of 6400 edges, against the same network
  written as whole-array operations.

  On the extended reals both compute one function of the argument arrays (EdgeMlp.lean). The kernel never joins the three
  feature rows: it multiplies each by its own band of rows of the first weight matrix and adds the three products, where the
  reference multiplies the joined row by the whole matrix. A sum of 160 products taken in one pass or as three consecutive
  bands is the same extended real, because addition there is commutative and associative also at the infinities; so the claim
  holds for all inputs and the precondition is never opened. The narrowing format changes the kernel applies to its matrix
  operands are the identity on the extended reals, a product accumulated into the zero array is the plain sum of products, and
  both programs take the maximum with the same zero.

  The pieces: the reference's term is the specification (RefValue.lean, over the reference's run read one operation at a
  time); one run of the kernel body computes, entry by entry, the specification's formula of its loaded blocks (BodyValue.lean);
  each loaded block holds the argument entries the specification reads (Windows.lean); so each grid point writes back its
  block of the specification and the blocks tile the result (KernelValue.lean). The kernel makes no idealizing rewrite, so
  the word-level program needs only its frame.
-/
import proofs.«139858_j17669495456023_2_alg».proof.Defs
import proofs.«139858_j17669495456023_2_alg».proof.Proof.Gen.Kernel
import proofs.«139858_j17669495456023_2_alg».proof.Proof.Gen.Kernel.Skeleton
import proofs.«139858_j17669495456023_2_alg».proof.Proof.Gen.Kernel.Launch
import proofs.«139858_j17669495456023_2_alg».proof.Proof.Gen.Kernel.Points
import proofs.«139858_j17669495456023_2_alg».proof.Proof.Gen.Kernel.Frame
import proofs.«139858_j17669495456023_2_alg».proof.Proof.Gen.KernelIdeal
import proofs.«139858_j17669495456023_2_alg».proof.Proof.Gen.KernelIdeal.Skeleton
import proofs.«139858_j17669495456023_2_alg».proof.Proof.Gen.KernelIdeal.Launch
import proofs.«139858_j17669495456023_2_alg».proof.Proof.Gen.KernelIdeal.Points
import proofs.«139858_j17669495456023_2_alg».proof.Proof.Gen.KernelIdeal.Frame
import proofs.«139858_j17669495456023_2_alg».proof.Proof.Gen.ReferenceIdeal
import proofs.«139858_j17669495456023_2_alg».proof.Proof.Gen.Pre_finite_inputs
import proofs.«139858_j17669495456023_2_alg».proof.Proof.Gen.KernelIdeal.Value
import proofs.«139858_j17669495456023_2_alg».proof.Proof.Gen.ReferenceIdeal.Run
import proofs.«139858_j17669495456023_2_alg».proof.Proof.Gen.ReferenceIdeal.Read
import proofs.«139858_j17669495456023_2_alg».proof.Proof.KernelValue
import proofs.«139858_j17669495456023_2_alg».proof.Proof.RefValue
import Idealize.ShloMosaic.Adequacy
import Idealize.ShloMosaic.Init

noncomputable section

namespace Cert.Proof

open Idealize.ShloMosaic Idealize.SL.Sem Cert.Kernel

/-- The word-level kernel runs, faults nowhere and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of whole-array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification of their (equal) arguments in the result array. -/
theorem algebraic : Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, -, -, a5, a6, a7, a8⟩ := hagree c
  rw [Cert.ReferenceIdeal.Read.val_main_v9_eq, Cert.ReferenceIdeal.RefValue.value_eq, a0, a1, a2, a5, a6, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
